-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : IVec S2x1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1600000 : Shape := ⟨1, ![1600000]⟩
abbrev S10000x128 : Shape := ⟨2, ![10000, 128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S10000x1 : Shape := ⟨2, ![10000, 1]⟩
abbrev S1x128 : Shape := ⟨2, ![1, 128]⟩

abbrev nBuf : Space → Nat
  | .hbm => 66
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1600000, .f32⟩
  | .hbm, ⟨5, _⟩ => ⟨S100000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  shapeCasts_S1700000_S1700000x1 : S1700000.ShapeCasts S1700000x1
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1600000 : Shape := ⟨1, ![1600000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1600000, .f32⟩
  | .hbm, ⟨5, _⟩ => ⟨S100000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, read at its result.

  The program is two pipelined regions among stretches of host operations.  Its contents at the boundaries of those
  segments are a fold from the launch memory: the first region leaves its arrays at what its write-backs leave, each host
  stretch applies its operations, the second region again leaves its arrays at what its write-backs leave, and the last
  stretch applies the closing operations.  Every weakly fair execution terminates without a fault with every unscoped
  buffer at the last boundary's contents; here that is stated for the result buffer as well as for the five arguments,
  so that the result can be compared with the reference's.
-/
import proofs.«116084_j38577396253199_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.RunValue

end
-- ==== Proof.Payloads.lean ====
/-
  What each kernel body stores, read at one index of its block.

  The first body multiplies a block of 10000 rows of the embedding table by the whole 128 × 128 weight matrix: both
  operands are first narrowed to bf16, which at the extended reals changes nothing, and the product is accumulated into a
  zero block, so the entry at row r and column q is the plain sum over k of (row r, column k) of the rows' block times
  (row k, column q) of the weights.

  The second body scales each row of a block of 10000 gathered rows by that row's one weight: the entry at row r and
  column q is the row's entry times entry (r, 0) of the column of weights.
-/
import proofs.«116084_j38577396253199_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payloads

open Cert.KernelIdeal Cert.KernelIdeal.Gen Idealize.ShloMosaic Idealize.ShloMosaic.TcCoe Idealize.SL.Sem

/-- The dimensions of the block product: rows × 128 times 128 × columns, one contracted axis. -/
abbrev blockDot := dot_S10000x128_S128x128_S10000x128_1_0_0_1_n_n

/-- Entry (row of `j`, `k`) of the rows' block. -/
abbrev rowAt (j : S10000x128.Idx) (k : Fin 128) : S10000x128.Idx := fun a => match a with
  | ⟨0, _⟩ => ⟨(j 0).val, (j 0).isLt⟩
  | ⟨1, _⟩ => ⟨k.val, k.isLt⟩

/-- Entry (`k`, column of `j`) of the weights. -/
abbrev colAt (j : S10000x128.Idx) (k : Fin 128) : S128x128.Idx := fun a => match a with
  | ⟨0, _⟩ => ⟨k.val, k.isLt⟩
  | ⟨1, _⟩ => ⟨(j 1).val, (j 1).isLt⟩

theorem lhs_row (j : S10000x128.Idx) (q : blockDot.contr.Idx) : (blockDot.lhsIdx j q 0).val = (j 0).val := by
  unfold DotDims.lhsIdx
  rw [dif_neg (show ¬(0 : Fin S10000x128.rank) ∈ blockDot.lhsBatch by decide), dif_pos (show (0 : Fin S10000x128.rank) ∈ blockDot.lhsNonContracting by decide)]
  rfl
theorem lhs_contr (j : S10000x128.Idx) (q : blockDot.contr.Idx) : (blockDot.lhsIdx j q 1).val = (q ⟨0, by decide⟩).val :=
  blockDot.lhsIdx_val_of_single rfl j q
theorem rhs_contr (j : S10000x128.Idx) (q : blockDot.contr.Idx) : (blockDot.rhsIdx j q 0).val = (q ⟨0, by decide⟩).val :=
  blockDot.rhsIdx_val_of_single rfl j q
theorem rhs_col (j : S10000x128.Idx) (q : blockDot.contr.Idx) : (blockDot.rhsIdx j q 1).val = (j 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The first body's stored block at an index: the sum over the contracted axis of the products of the two loaded
    blocks' entries (narrowing to bf16 is the identity on the extended reals; the accumulator starts at zero). -/
theorem product_apply (x0 : FVec Ideal S10000x128 .f32) (x1 : FVec Ideal S128x128 .f32) (j : S10000x128.Idx) :
    k0_pay1 (F := Ideal) x0 x1 j = ∑ k : Fin 128, x0 (rowAt j k) * x1 (colAt j k) := by
  unfold k0_pay1
  simp only [matmul]
  rw [Ideal.matmul_constant_zero_apply, ← Equiv.sum_comp (ValueIdx.contrEquiv1 blockDot 128 rfl rfl).symm]
  refine Finset.sum_congr rfl fun k _ => ?_
  have hk := ValueIdx.contrEquiv1_symm_val blockDot 128 rfl rfl k
  have el : blockDot.lhsIdx j ((ValueIdx.contrEquiv1 blockDot 128 rfl rfl).symm k) = rowAt j k := funext fun a => Fin.ext (by
    match a with
    | ⟨0, _⟩ => exact lhs_row _ _
    | ⟨1, _⟩ => exact (lhs_contr _ _).trans hk)
  have er : blockDot.rhsIdx j ((ValueIdx.contrEquiv1 blockDot 128 rfl rfl).symm k) = colAt j k := funext fun a => Fin.ext (by
    match a with
    | ⟨0, _⟩ => exact (rhs_contr _ _).trans hk
    | ⟨1, _⟩ => exact rhs_col _ _)
  rw [el, er]
  rfl

variable {F : FTy → Type} [FloatOps F]

/-- Entry (row of `j`, 0) of a column of row weights. -/
abbrev weightAt (j : S10000x128.Idx) : S10000x1.Idx := fun a => match a with
  | ⟨0, _⟩ => ⟨(j 0).val, (j 0).isLt⟩
  | ⟨1, _⟩ => ⟨0, Nat.one_pos⟩

/-- The second body's stored block at an index: the row's entry times the row's weight. -/
theorem scaled_apply (x0 : FVec F S10000x128 .f32) (x1 : FVec F S10000x1 .f32) (j : S10000x128.Idx) :
    k1_pay1 (F := F) x0 x1 j = FloatOps.mulf (x0 j) (x1 (weightAt j)) := by
  unfold k1_pay1
  simp only [shapeCast_self]
  show FloatOps.mulf (x0 j) (broadcastTo S10000x128 x1 broadcasts_S10000x1_S10000x128 j) = _
  rw [broadcastTo_apply x1 broadcasts_S10000x1_S10000x128 j (weightAt j) (fun a => match a with
    | ⟨0, _⟩ => by show (j 0).val = if (10000 : Nat) = 1 then 0 else (j ⟨0 + (2 - 2), _⟩).val; rw [if_neg (by decide)]; rfl
    | ⟨1, _⟩ => by show 0 = if (1 : Nat) = 1 then 0 else (j ⟨1 + (2 - 2), _⟩).val; rw [if_pos rfl])]

end Cert.KernelIdeal.Payloads

end
-- ==== Proof.ProductArray.lean ====
/-
  The first region's result array is the whole matrix product.

  The grid has ten points; point t stages rows 10000·t … 10000·t + 9999 of the table and the whole weight matrix, and
  writes back rows 10000·t … 10000·t + 9999 of the result.  What a point writes back is therefore the same rows of ONE
  function of the two arrays — entry (r, q) is the sum over k of table (r, k) times weights (k, q) — and the ten blocks
  of rows cover the result, so after the region the result array is that function.
-/
import proofs.«116084_j38577396253199_1_alg».proof.Proof.Gen.KernelIdeal.Frame
import proofs.«116084_j38577396253199_1_alg».proof.Proof.Payloads
import Idealize.ShloMosaic.Lib.Pipeline.Value

set_option maxRecDepth 16384

noncomputable section

namespace Cert.KernelIdeal.ProductArray

open Cert.KernelIdeal Cert.KernelIdeal.Gen Cert.KernelIdeal.Payloads
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (row of `i`, `k`) of the table. -/
abbrev tableAt (i : S100000x128.Idx) (k : Fin 128) : S100000x128.Idx := fun a => match a with
  | ⟨0, _⟩ => ⟨(i 0).val, (i 0).isLt⟩
  | ⟨1, _⟩ => ⟨k.val, k.isLt⟩

/-- Entry (`k`, column of `i`) of the weights. -/
abbrev weightsAt (i : S100000x128.Idx) (k : Fin 128) : S128x128.Idx := fun a => match a with
  | ⟨0, _⟩ => ⟨k.val, k.isLt⟩
  | ⟨1, _⟩ => ⟨(i 1).val, (i 1).isLt⟩

/-- The matrix product of the table and the weights over the extended reals, entry by entry. -/
def product (a0 : S100000x128.Idx → EReal) (a1 : S128x128.Idx → EReal) : S100000x128.Idx → EReal :=
  fun i => ∑ k : Fin 128, a0 (tableAt i k) * a1 (weightsAt i k)

/-- The printed index maps over the ten points: the table's block and the result's block are the point's block of
    rows, the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed_eq (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext y
  refine (product_apply (iblk0 V c 0 t) (iblk0 V c 1 t) y).trans ?_
  rw [View.read_apply]
  unfold product
  refine Finset.sum_congr rfl fun k _ => ?_
  unfold iblk0
  rw [View.read_apply, View.read_apply]
  let A0 : S100000x128.Idx → EReal := V c main_arg0
  let A1 : S128x128.Idx → EReal := V c main_arg1
  show A0 (((cfg0.win 0).blk t).view.emb (rowAt y k)) * A1 (((cfg0.win 1).blk t).view.emb (colAt y k))
    = A0 (tableAt (((cfg0.win 2).blk t).view.emb y) k) * A1 (weightsAt (((cfg0.win 2).blk t).view.emb y) k)
  have h0 : ((cfg0.win 0).blk t).view.emb (rowAt y k) = tableAt (((cfg0.win 2).blk t).view.emb y) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  have h1 : ((cfg0.win 1).blk t).view.emb (colAt y k) = weightsAt (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [h0, h1]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Row `r` of the result lies in the block of point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < cfg0.N := by show _ < grid0.N; rw [N_0]; omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- After the first region its result array is the product of the two arrays it staged. -/
theorem array_eq (c : Dev nD) : (dat0 V c).arrAt 2 cfg0.N = product (V c main_arg0) (V c main_arg1) :=
  (dat0 V c).arrAt_eq_of_cover 2 (product (V c main_arg0) (V c main_arg1)) (fun t _ => flushed_eq V c t) cover

end Cert.KernelIdeal.ProductArray

end
-- ==== Proof.ScaledArray.lean ====
/-
  The second region's result array is the gathered rows, each scaled by its weight.

  The grid has 170 points; point t stages rows 10000·t … 10000·t + 9999 of the gathered rows and of the one-column
  array of row weights, and writes back the same rows of the result.  What a point writes back is therefore those rows
  of ONE function of the two arrays — entry (r, q) is the gathered entry (r, q) times weight (r, 0) — and the 170 blocks
  of rows cover the result, so after the region the result array is that function.
-/
import proofs.«116084_j38577396253199_1_alg».proof.Proof.Gen.KernelIdeal.Frame
import proofs.«116084_j38577396253199_1_alg».proof.Proof.Payloads
import Idealize.ShloMosaic.Lib.Pipeline.Value

set_option maxRecDepth 16384

noncomputable section

namespace Cert.KernelIdeal.ScaledArray

open Cert.KernelIdeal Cert.KernelIdeal.Gen Cert.KernelIdeal.Payloads
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry (row of `i`, 0) of the column of row weights. -/
abbrev rowWeightAt (i : S1700000x128.Idx) : S1700000x1.Idx := fun a => match a with
  | ⟨0, _⟩ => ⟨(i 0).val, (i 0).isLt⟩
  | ⟨1, _⟩ => ⟨0, Nat.one_pos⟩

/-- Every row of `a` scaled by its weight, entry by entry. -/
def scaled (a : S1700000x128.Idx → Elt F .f32) (w : S1700000x1.Idx → Elt F .f32) : S1700000x128.Idx → Elt F .f32 :=
  fun i => FloatOps.mulf (a i) (w (rowWeightAt i))

/-- The printed index maps over the 170 points: all three windows' blocks are the point's block of rows. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled rows of the arrays as the region finds them. -/
theorem flushed_eq (c : Dev nD) (t : Fin cfg1.N) :
    (dat1 V c).flushed 2 t = ((cfg1.win 2).blk t).view.read (Elt F) (scaled (V c main_v39) (V c main_v40)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := idx_facts t
  funext y
  refine (scaled_apply (iblk1 V c 0 t) (iblk1 V c 1 t) y).trans ?_
  rw [View.read_apply]
  unfold scaled iblk1
  rw [View.read_apply, View.read_apply]
  show FloatOps.mulf (V c main_v39 (((cfg1.win 0).blk t).view.emb y)) (V c main_v40 (((cfg1.win 1).blk t).view.emb (weightAt y)))
    = FloatOps.mulf (V c main_v39 (((cfg1.win 2).blk t).view.emb y)) (V c main_v40 (rowWeightAt (((cfg1.win 2).blk t).view.emb y)))
  have h0 : ((cfg1.win 0).blk t).view.emb y = ((cfg1.win 2).blk t).view.emb y := by
    funext a; apply Fin.ext
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 128 + 1 * (y 1).val = win1_2.index t (1 : Fin 2) * 128 + 1 * (y 1).val; omega
  have h1 : ((cfg1.win 1).blk t).view.emb (weightAt y) = rowWeightAt (((cfg1.win 2).blk t).view.emb y) := by
    funext a; apply Fin.ext
    match a with
    | ⟨0, _⟩ => show win1_1.index t (0 : Fin 2) * 10000 + 1 * (y 0).val = win1_2.index t (0 : Fin 2) * 10000 + 1 * (y 0).val; omega
    | ⟨1, _⟩ => show win1_1.index t (1 : Fin 2) * 1 + 1 * 0 = 0; omega
  rw [h0, h1]

/-- An index of the result is in point `t`'s block iff each coordinate is in the block's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- Row `r` of the result lies in the block of point `r / 10000`. -/
theorem cover (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have ht : (i 0).val / 10000 < cfg1.N := by show _ < grid1.N; rw [N_1]; omega
  obtain ⟨e0, e1, e2, e3, e4, e5⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 128 ≤ (i 1).val ∧ (i 1).val < win1_2.index ⟨(i 0).val / 10000, ht⟩ (1 : Fin 2) * 128 + 128
    rw [e5]; omega

/-- After the second region its result array is the gathered rows scaled by their weights. -/
theorem array_eq (c : Dev nD) : (dat1 V c).arrAt 2 cfg1.N = scaled (V c main_v39) (V c main_v40) :=
  (dat1 V c).arrAt_eq_of_cover 2 (scaled (V c main_v39) (V c main_v40)) (fun t _ => flushed_eq V c t) cover

end Cert.KernelIdeal.ScaledArray

end
-- ==== Proof.HostChain.lean ====
/-
  The idealized kernel's values between and after its two regions, read through the stretches of host operations.

  Outside the two regions the kernel's program applies, to the two integer rows of edge endpoints and to the edge
  weights, the very operations the reference applies: the endpoints extended by the self loops, the degrees as a
  scatter-sum of the extended weights, their reciprocal square roots where positive, each edge's weight as the
  product of its two endpoints' factors and its own weight, the rows of the transformed table gathered at the
  sources, and at the end the scatter-sum of the weighted rows at the destinations plus the bias.  So each buffer the
  kernel's host operations write holds the reference's stage of the same arguments, once the two regions' arrays are
  known: the first is the matrix product of the table and the weights, the second the gathered rows scaled by the
  edges' weights.  The one difference of spelling is that the kernel reshapes the edges' weights to a column where the
  reference broadcasts them: both read the weight of edge r at (r, 0).

  The host operations come in stretches — up to the degrees' comparison and reciprocal square root; the selection of
  the factor; the edges' weights and the gather — and each stretch is read over the contents the one before left, with
  every operand already named as the reference's stage, so that no comparison opens more than a few operations.
-/
import proofs.«116084_j38577396253199_1_alg».proof.Proof.Gen.KernelIdeal.Frame
import proofs.«116084_j38577396253199_1_alg».proof.Proof.Gen.ReferenceIdeal.Read
import proofs.«116084_j38577396253199_1_alg».proof.Proof.ProductArray
import proofs.«116084_j38577396253199_1_alg».proof.Proof.ScaledArray
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The five argument arrays as launched: the table, the weight matrix, the bias, the edges' endpoints, the edges' weights. -/
abbrev table (c : Dev nD) : (⟨S100000x128, .f32⟩ : BufTy).Contents (Elt Ideal) := m ((c : Thread nD τ).loc main_arg0)
abbrev weights (c : Dev nD) : (⟨S128x128, .f32⟩ : BufTy).Contents (Elt Ideal) := m ((c : Thread nD τ).loc main_arg1)
abbrev bias (c : Dev nD) : (⟨S128, .f32⟩ : BufTy).Contents (Elt Ideal) := m ((c : Thread nD τ).loc main_arg2)
abbrev ends (c : Dev nD) : (⟨S2x1600000, .i32⟩ : BufTy).Contents (Elt Ideal) := m ((c : Thread nD τ).loc main_arg3)
abbrev edgeWeights (c : Dev nD) : (⟨S1600000, .f32⟩ : BufTy).Contents (Elt Ideal) := m ((c : Thread nD τ).loc main_arg4)

/-- Reads on through the operations that a joined pair of arrays hides from the one-pass reading: each operation's result
    at its own buffer is its function of its operands, and at any other buffer what was there. -/
macro "peel_results" : tactic =>
  `(tactic| repeat (first
      | rw [nullary_result] | rw [unary_result] | rw [binary_result] | rw [ternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The block-free matrix product is the reference's `dot_general` of the same two arrays: both are, entry by entry, the
    sum over the contracted axis of the products. -/
theorem product_eq (x0 : (⟨S100000x128, .f32⟩ : BufTy).Contents (Elt Ideal)) (x1 : (⟨S128x128, .f32⟩ : BufTy).Contents (Elt Ideal)) :
    ProductArray.product x0 x1 = Cert.ReferenceIdeal.Read.val_main_v0 (F := Ideal) x0 x1 := by
  funext i
  rw [Cert.ReferenceIdeal.Read.val_main_v0_apply]
  rfl

/-- After the first region the transformed table is the reference's. -/
theorem at_transformed (c : Dev nD) :
    W1 m ρ c (Proc.devRef .tc main_v0) = Cert.ReferenceIdeal.Read.val_main_v0 (F := Ideal) (table m c) (weights m c) :=
  ((W1_arr m ρ c 2).trans (ProductArray.array_eq (V0 m ρ) c)).trans (product_eq _ _)

/-! ## The first stretch: the extended endpoints and weights, the degrees, their comparison and reciprocal square root -/

theorem sources1 (c : Dev nD) : W2 m ρ c (Proc.devRef .tc main_v6) = Cert.ReferenceIdeal.Read.val_main_v6 (F := Ideal) (ends m c) := by
  dsimp only [W2, hostOps1]
  after_results_simp
  peel_results
  rw [W1_of_ne m ρ c main_arg3 (by decide)]
  rfl

theorem destinations1 (c : Dev nD) : W2 m ρ c (Proc.devRef .tc main_v7) = Cert.ReferenceIdeal.Read.val_main_v7 (F := Ideal) (ends m c) := by
  dsimp only [W2, hostOps1]
  after_results_simp
  peel_results
  rw [W1_of_ne m ρ c main_arg3 (by decide)]
  rfl

theorem extWeights1 (c : Dev nD) : W2 m ρ c (Proc.devRef .tc main_v9) = Cert.ReferenceIdeal.Read.val_main_v9 (F := Ideal) (edgeWeights m c) := by
  dsimp only [W2, hostOps1]
  after_results_simp
  peel_results
  rw [W1_of_ne m ρ c main_arg4 (by decide)]
  rfl

theorem positive1 (c : Dev nD) : W2 m ρ c (Proc.devRef .tc main_v14) = Cert.ReferenceIdeal.Read.val_main_v14 (F := Ideal) (ends m c) (edgeWeights m c) := by
  dsimp only [W2, hostOps1]
  after_results_simp
  peel_results
  rw [W1_of_ne m ρ c main_arg3 (by decide), W1_of_ne m ρ c main_arg4 (by decide)]
  rfl

theorem rsqrt1 (c : Dev nD) : W2 m ρ c (Proc.devRef .tc main_v15) = Cert.ReferenceIdeal.Read.val_main_v15 (F := Ideal) (ends m c) (edgeWeights m c) := by
  dsimp only [W2, hostOps1]
  after_results_simp
  peel_results
  rw [W1_of_ne m ρ c main_arg3 (by decide), W1_of_ne m ρ c main_arg4 (by decide)]
  rfl

theorem zero1 (c : Dev nD) : W2 m ρ c (Proc.devRef .tc main_cst_2) = Cert.ReferenceIdeal.Read.val_main_cst_2 (F := Ideal) := by
  dsimp only [W2, hostOps1]
  after_results_simp
  rfl

theorem transformed1 (c : Dev nD) : W2 m ρ c (Proc.devRef .tc main_v0)
    = Cert.ReferenceIdeal.Read.val_main_v0 (F := Ideal) (table m c) (weights m c) := by
  dsimp only [W2, hostOps1]
  after_results_simp
  exact at_transformed m ρ c

theorem bias1 (c : Dev nD) : W2 m ρ c (Proc.devRef .tc main_arg2) = bias m c := by
  dsimp only [W2, hostOps1]
  after_results_simp
  rw [W1_of_ne m ρ c main_arg2 (by decide)]

/-! ## The second stretch: the factor of each node, its degree's reciprocal square root where the degree is positive -/

/-- A typed reference's transport there and back is the identity. -/
theorem ofBuf_toBuf {T : BufTy} (x : TRef sig T) (v : T.Contents (Elt Ideal)) : x.ofBuf (x.toBuf v) = v := by
  obtain ⟨r, h, hd, hu⟩ := x
  subst h
  rfl

/-- At the literal references of the factor's selection the transports are identities (the buffers' types are the values'). -/
theorem toBuf_factor (p1 p2 p3) (v : (⟨S100000, .f32⟩ : BufTy).Contents (Elt Ideal)) :
    (TRef.of (T := ⟨S100000, .f32⟩) main_v16 p1 p2 p3).toBuf v = v := rfl
theorem ofBuf_positive (p1 p2 p3) (v : (⟨S100000, .i1⟩ : BufTy).Contents (Elt Ideal)) :
    (TRef.of (T := ⟨S100000, .i1⟩) main_v14 p1 p2 p3).ofBuf v = v := rfl
theorem ofBuf_rsqrt (p1 p2 p3) (v : (⟨S100000, .f32⟩ : BufTy).Contents (Elt Ideal)) :
    (TRef.of (T := ⟨S100000, .f32⟩) main_v15 p1 p2 p3).ofBuf v = v := rfl
theorem ofBuf_zero (p1 p2 p3) (v : (⟨S_, .f32⟩ : BufTy).Contents (Elt Ideal)) :
    (TRef.of (T := ⟨S_, .f32⟩) main_cst_2 p1 p2 p3).ofBuf v = v := rfl

theorem factor2 (c : Dev nD) : W3 m ρ c (Proc.devRef .tc main_v16) = Cert.ReferenceIdeal.Read.val_main_v16 (F := Ideal) (ends m c) (edgeWeights m c) := by
  have h14 := positive1 m ρ c
  have h15 := rsqrt1 m ρ c
  have hz := zero1 m ρ c
  dsimp only [W3, hostOps1_1]
  generalize W2 m ρ c = V2 at h14 h15 hz ⊢
  after_results_simp
  rw [h14, h15, hz]
  rw [toBuf_factor, ofBuf_positive, ofBuf_rsqrt, ofBuf_toBuf, ofBuf_toBuf, ofBuf_zero]
  rfl

theorem sources2 (c : Dev nD) : W3 m ρ c (Proc.devRef .tc main_v6) = Cert.ReferenceIdeal.Read.val_main_v6 (F := Ideal) (ends m c) := by
  have h := sources1 m ρ c
  dsimp only [W3, hostOps1_1]
  generalize W2 m ρ c = V2 at h ⊢
  after_results_simp
  exact h

theorem destinations2 (c : Dev nD) : W3 m ρ c (Proc.devRef .tc main_v7) = Cert.ReferenceIdeal.Read.val_main_v7 (F := Ideal) (ends m c) := by
  have h := destinations1 m ρ c
  dsimp only [W3, hostOps1_1]
  generalize W2 m ρ c = V2 at h ⊢
  after_results_simp
  exact h

theorem extWeights2 (c : Dev nD) : W3 m ρ c (Proc.devRef .tc main_v9) = Cert.ReferenceIdeal.Read.val_main_v9 (F := Ideal) (edgeWeights m c) := by
  have h := extWeights1 m ρ c
  dsimp only [W3, hostOps1_1]
  generalize W2 m ρ c = V2 at h ⊢
  after_results_simp
  exact h

theorem transformed2 (c : Dev nD) : W3 m ρ c (Proc.devRef .tc main_v0) = Cert.ReferenceIdeal.Read.val_main_v0 (F := Ideal) (table m c) (weights m c) := by
  have h := transformed1 m ρ c
  dsimp only [W3, hostOps1_1]
  generalize W2 m ρ c = V2 at h ⊢
  after_results_simp
  exact h

theorem bias2 (c : Dev nD) : W3 m ρ c (Proc.devRef .tc main_arg2) = bias m c := by
  have h := bias1 m ρ c
  dsimp only [W3, hostOps1_1]
  generalize W2 m ρ c = V2 at h ⊢
  after_results_simp
  exact h

/-! ## The third stretch: the edges' weights and the gathered rows, as the second region finds them -/

/-- Entering the second region, the gathered rows are the reference's. -/
theorem at_gathered (c : Dev nD) : W4 m ρ c (Proc.devRef .tc main_v39)
    = Cert.ReferenceIdeal.Read.val_main_v39 (F := Ideal) (table m c) (weights m c) (ends m c) := by
  have h0 := transformed2 m ρ c
  have h6 := sources2 m ρ c
  dsimp only [W4, hostOps1_2]
  generalize W3 m ρ c = V3 at h0 h6 ⊢
  after_results_simp
  rw [h0, h6]
  rfl

/-- Entering the second region, the column of edge weights is the reference's edge weights, reshaped. -/
theorem at_column (c : Dev nD) : W4 m ρ c (Proc.devRef .tc main_v40)
    = shapeCast S1700000x1 (Cert.ReferenceIdeal.Read.val_main_v32 (F := Ideal) (ends m c) (edgeWeights m c)) shapeCasts_S1700000_S1700000x1 := by
  have h6 := sources2 m ρ c
  have h7 := destinations2 m ρ c
  have h9 := extWeights2 m ρ c
  have h16 := factor2 m ρ c
  dsimp only [W4, hostOps1_2]
  generalize W3 m ρ c = V3 at h6 h7 h9 h16 ⊢
  after_results_simp
  rw [h6, h7, h9, h16]
  rfl

/-- Entering the second region, the extended destinations are the reference's. -/
theorem at_destinations (c : Dev nD) : W4 m ρ c (Proc.devRef .tc main_v7) = Cert.ReferenceIdeal.Read.val_main_v7 (F := Ideal) (ends m c) := by
  have h := destinations2 m ρ c
  dsimp only [W4, hostOps1_2]
  generalize W3 m ρ c = V3 at h ⊢
  after_results_simp
  exact h

/-- Entering the second region, the bias is as launched. -/
theorem at_bias (c : Dev nD) : W4 m ρ c (Proc.devRef .tc main_arg2) = bias m c := by
  have h := bias2 m ρ c
  dsimp only [W4, hostOps1_2]
  generalize W3 m ρ c = V3 at h ⊢
  after_results_simp
  exact h

/-! ## The second region's result and the closing operations -/

/-- After the second region the weighted rows are the reference's: the gathered row's entry times the edge's weight,
    which the kernel reads from the reshaped column at (r, 0) and the reference from its broadcast at the same place. -/
theorem at_weighted (c : Dev nD) : W5 m ρ c (Proc.devRef .tc main_v41)
    = Cert.ReferenceIdeal.Read.val_main_v42 (F := Ideal) (table m c) (weights m c) (ends m c) (edgeWeights m c) := by
  refine ((W5_arr m ρ c 2).trans (ScaledArray.array_eq (V4 m ρ) c)).trans ?_
  show ScaledArray.scaled (W4 m ρ c (Proc.devRef .tc main_v39)) (W4 m ρ c (Proc.devRef .tc main_v40)) = _
  rw [at_gathered m ρ c, at_column m ρ c]
  funext i
  rw [Cert.ReferenceIdeal.Read.val_main_v42_apply, Cert.ReferenceIdeal.Read.val_main_v41_apply, Cert.ReferenceIdeal.Read.val_main_v40_apply]
  unfold ScaledArray.scaled
  refine congrArg (FloatOps.mulf _) ?_
  exact shapeCast_apply _ _ _ _ (by
    rw [Shape.rowMajor_val_one, Shape.rowMajor_val_two]
    show (i 0).val = (i 0).val * 1 + 0
    omega)

/-- The result buffer at the end of the kernel's program is the reference's last stage of the five arguments. -/
theorem result_eq (c : Dev nD) : W6 m ρ c (Proc.devRef .tc main_v47)
    = Cert.ReferenceIdeal.Read.val_main_v48 (F := Ideal) (table m c) (weights m c) (bias m c) (ends m c) (edgeWeights m c) := by
  dsimp only [W6, hostOps2]
  after_results_simp
  rw [at_weighted m ρ c, W5_of_ne m ρ c main_v7 (by decide), W5_of_ne m ρ c main_arg2 (by decide),
    at_destinations m ρ c, at_bias m ρ c]
  rfl

end Cert.KernelIdeal.Chain

end
-- ==== Proof.lean ====
/-
  The kernel is one graph-convolution layer: the node table times a weight matrix, every edge (and a self loop per
  node) sending its source's transformed row, scaled by the symmetric normalisation of the edge's weight, to its
  destination, where the rows are summed and the bias added.  The kernel computes the matrix product and the scaling of
  the gathered rows in two pipelined regions, ten and 170 blocks of 10000 rows each, and everything else — the degrees,
  their reciprocal square roots, the gathers and the two scatter-sums — by the same host operations as the reference,
  which computes the product and the scaling by host operations too.

  Over the extended reals narrowing an operand to bf16 is the identity and a block product into a zero accumulator is
  the plain sum of products, so block by block the first region writes the rows of the one matrix product the reference
  computes; the second region writes, block by block, the gathered rows scaled by their edges' weights, which is the
  reference's elementwise product with the broadcast weights.  The two programs' results are then the same closing
  operations of equal arrays.  No step reorders a sum or uses distributivity, so finiteness of the inputs is never used.

  The three frames: the two kernel programs' are the generated runs over their two regions; the reference has no region
  and its frame is its run with the result dropped.  The idealization rewrote no operation, so there is nothing to
  preserve.
-/
import proofs.«116084_j38577396253199_1_alg».proof.Defs
import proofs.«116084_j38577396253199_1_alg».proof.Proof.Gen.Kernel
import proofs.«116084_j38577396253199_1_alg».proof.Proof.Gen.Kernel.Skeleton
import proofs.«116084_j38577396253199_1_alg».proof.Proof.Gen.Kernel.Launch
import proofs.«116084_j38577396253199_1_alg».proof.Proof.Gen.Kernel.Points
import proofs.«116084_j38577396253199_1_alg».proof.Proof.Gen.Kernel.Frame
import proofs.«116084_j38577396253199_1_alg».proof.Proof.Gen.KernelIdeal
import proofs.«116084_j38577396253199_1_alg».proof.Proof.Gen.KernelIdeal.Skeleton
import proofs.«116084_j38577396253199_1_alg».proof.Proof.Gen.KernelIdeal.Launch
import proofs.«116084_j38577396253199_1_alg».proof.Proof.Gen.KernelIdeal.Points
import proofs.«116084_j38577396253199_1_alg».proof.Proof.Gen.KernelIdeal.Frame
import proofs.«116084_j38577396253199_1_alg».proof.Proof.Gen.ReferenceIdeal
import proofs.«116084_j38577396253199_1_alg».proof.Proof.Gen.Pre_finite_inputs
import proofs.«116084_j38577396253199_1_alg».proof.Proof.Gen.ReferenceIdeal.Run
import proofs.«116084_j38577396253199_1_alg».proof.Proof.Gen.ReferenceIdeal.Read
import proofs.«116084_j38577396253199_1_alg».proof.Proof.KernelRun
import proofs.«116084_j38577396253199_1_alg».proof.Proof.HostChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the five arguments both programs end with the result at the reference's last stage of
    those arguments: the kernel's run read through its two regions and its host operations, the reference's run read
    stage by stage. -/
theorem algebraic : Cert.algebraic_KernelIdeal_ReferenceIdeal := by
  intro m ρ m' ρ' _ hagree
  refine ⟨fun c => Cert.ReferenceIdeal.Read.val_main_v48 (F := Ideal) (Cert.KernelIdeal.Chain.table m c)
    (Cert.KernelIdeal.Chain.weights m c) (Cert.KernelIdeal.Chain.bias m c) (Cert.KernelIdeal.Chain.ends m c)
    (Cert.KernelIdeal.Chain.edgeWeights m c), ?_, ?_⟩
  · exact (θ_run Cert.KernelIdeal.defs _ _).mono
      (fun _ h c => ⟨(h c).1.trans (Cert.KernelIdeal.Chain.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
